-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S200x128 : Shape := ⟨2, ![200, 128]⟩
abbrev S200x10000 : Shape := ⟨2, ![200, 10000]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S200x128, .f32⟩
  | .local _ .vmem, ⟨6, _⟩ => ⟨S200x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![25, 2], ![false, false]⟩

def k0_off1 (i : grid0.Coords) : Fin 2 → Nat :=
  let arg1 : BitVec 32 := BitVec.ofNat 32 (i 1).val
  let c200_i32 : BitVec 32 := 200#32
  let v5 : BitVec 32 := Scalar.muli arg1 c200_i32
  let v6 : Index := Scalar.indexCast v5
  let c0 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  h_S200x10000 : 0 < S200x10000.numel
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ a, (k0_off1 i) a + S200x10000.size a ≤ S400x10000.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S1x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GraphConvSpec.lean ====
/-
  The graph-convolution layer  out = tanh (adj · (feature · W + b))  as ONE function of its four argument arrays, entry by
  entry, on the extended reals.  Row `k` of the support matrix is the row `k` of `feature` times `W`, plus the bias row:
  support (k, c) = (Σ e, feature (k, e) · W (e, c)) + b c.  Entry (r, c) of the layer is the hyperbolic tangent of the
  product of row `r` of the adjacency matrix with column `c` of the support: tanh (Σ k, adj (r, k) · support (k, c)).
  Both sums are finite sums of extended reals in their natural order; nothing here distributes a factor over a sum, so no
  entry has to be finite.
-/
import Idealize.ShloMosaic.PureOps.Ideal
import Idealize.ShloMosaic.Lib.ValueIdx

noncomputable section

open scoped BigOperators

namespace Cert.GraphConv

open Idealize.ShloMosaic Idealize.ShloMosaic.ValueIdx

/-- Nodes × features. -/
abbrev SNxD : Shape := ⟨2, ![10000, 128]⟩
/-- Nodes × nodes. -/
abbrev SNxN : Shape := ⟨2, ![10000, 10000]⟩
/-- Features × features. -/
abbrev SDxD : Shape := ⟨2, ![128, 128]⟩
/-- One feature row. -/
abbrev SD : Shape := ⟨1, ![128]⟩

/-- The support matrix at node `k`, feature `c`: row `k` of `feature` against column `c` of `W`, plus the bias at `c`. -/
def supportAt (feature : FVec Ideal SNxD .f32) (W : FVec Ideal SDxD .f32) (b : FVec Ideal SD .f32)
    (k : Fin 10000) (c : Fin 128) : EReal :=
  (∑ e : Fin 128, feature (ix2 k e) * W (ix2 e c)) + b (ix1 c)

/-- The layer at node `r`, feature `c`: the hyperbolic tangent of row `r` of `adj` against column `c` of the support. -/
def layerAt (feature : FVec Ideal SNxD .f32) (adj : FVec Ideal SNxN .f32) (W : FVec Ideal SDxD .f32) (b : FVec Ideal SD .f32)
    (r : Fin 10000) (c : Fin 128) : EReal :=
  Ideal.tanh (∑ k : Fin 10000, adj (ix2 r k) * supportAt feature W b k c)

/-- The layer as an array: entry `i` is the layer at the two coordinates of `i`. -/
def layer (feature : FVec Ideal SNxD .f32) (adj : FVec Ideal SNxN .f32) (W : FVec Ideal SDxD .f32) (b : FVec Ideal SD .f32) :
    FVec Ideal SNxD .f32 :=
  fun i => layerAt feature adj W b (i 0) (i 1)

/-- The layer array at explicit coordinates. -/
theorem layer_ix2 (feature : FVec Ideal SNxD .f32) (adj : FVec Ideal SNxN .f32) (W : FVec Ideal SDxD .f32) (b : FVec Ideal SD .f32)
    (r : Fin 10000) (c : Fin 128) : layer feature adj W b (ix2 r c) = layerAt feature adj W b r c := rfl

end Cert.GraphConv

end
-- ==== Proof.ReferenceLayer.lean ====
/-
  The reference program computes the layer.  Its six host operations, read at one entry (r, c): the hyperbolic tangent of
  the product of row `r` of the adjacency matrix with column `c` of `feature · W + b`, the bias vector first made a
  one-row array and then broadcast down the rows, so that it is read at its column coordinate alone.  The contraction
  indices of the two products are the pairs (row, position) and (position, column).
-/
import proofs.«109879_g764504178707_cont_9to1c4b_186_10_alg».proof.Proof.Gen.ReferenceIdeal.Read
import proofs.«109879_g764504178707_cont_9to1c4b_186_10_alg».proof.Proof.GraphConvSpec

noncomputable section

open scoped BigOperators

namespace Cert.ReferenceIdeal.LayerValue

open Cert.ReferenceIdeal Cert.ReferenceIdeal.Read Idealize.ShloMosaic Idealize.ShloMosaic.ValueIdx

/-- In `feature · W` at entry (k, c), position `e`: the left factor is read at (k, e), -/
theorem left_of_support (k : Fin 10000) (c : Fin 128) (e : Fin 128) : lidx_main_v0 (ix2 k c) e = ix2 k e :=
  funext fun a => Fin.ext (by match a with | ⟨0, _⟩ => rfl | ⟨1, _⟩ => rfl)

/-- and the right factor at (e, c). -/
theorem right_of_support (k : Fin 10000) (c : Fin 128) (e : Fin 128) : ridx_main_v0 (ix2 k c) e = ix2 e c :=
  funext fun a => Fin.ext (by match a with | ⟨0, _⟩ => rfl | ⟨1, _⟩ => rfl)

/-- In `adj · support` at entry (r, c), position `k`: the left factor is read at (r, k), -/
theorem left_of_product (r : Fin 10000) (c : Fin 128) (k : Fin 10000) : lidx_main_v4 (ix2 r c) k = ix2 r k :=
  funext fun a => Fin.ext (by match a with | ⟨0, _⟩ => rfl | ⟨1, _⟩ => rfl)

/-- and the right factor at (k, c). -/
theorem right_of_product (r : Fin 10000) (c : Fin 128) (k : Fin 10000) : ridx_main_v4 (ix2 r c) k = ix2 k c :=
  funext fun a => Fin.ext (by match a with | ⟨0, _⟩ => rfl | ⟨1, _⟩ => rfl)

/-- The bias, made a row and broadcast down the rows, is read at the column coordinate. -/
theorem bias_at (k : Fin 10000) (c : Fin 128) : idx_main_v1 (idx_main_v2 (ix2 k c)) = ix1 c :=
  funext fun a => Fin.ext (by match a with | ⟨0, _⟩ => rfl)

/-- The reference's support stage at (k, c) is the support. -/
theorem support_stage (feature : FVec Ideal S10000x128 .f32) (W : FVec Ideal S128x128 .f32) (b : FVec Ideal S128 .f32)
    (k : Fin 10000) (c : Fin 128) :
    val_main_v3 (F := Ideal) feature W b (ix2 k c) = Cert.GraphConv.supportAt feature W b k c := by
  rw [val_main_v3_apply, val_main_v0_apply, val_main_v2_apply, val_main_v1_apply, bias_at k c]
  simp only [left_of_support, right_of_support]
  rfl

/-- The reference's result, as a function of its four arguments, is the layer. -/
theorem reference_eq_layer (feature : FVec Ideal S10000x128 .f32) (adj : FVec Ideal S10000x10000 .f32)
    (W : FVec Ideal S128x128 .f32) (b : FVec Ideal S128 .f32) :
    val_main_v5 (F := Ideal) feature adj W b = Cert.GraphConv.layer feature adj W b := by
  funext i
  obtain ⟨r, c, rfl⟩ : ∃ (r : Fin 10000) (c : Fin 128), i = ix2 r c := ⟨i 0, i 1, eq_ix2 i⟩
  rw [val_main_v5_apply, val_main_v4_apply, Cert.GraphConv.layer_ix2]
  refine congrArg Ideal.tanh (Finset.sum_congr rfl fun k _ => ?_)
  rw [left_of_product r c k, right_of_product r c k, support_stage feature W b k c]

end Cert.ReferenceIdeal.LayerValue

end
-- ==== Proof.FoundPieces.lean ====
/-
  What one run of the kernel body leaves behind, for any float values.

  The body has two cases.  At the first grid point it stores, into the node-by-feature scratch it keeps between points,
  the support rows computed from the feature block, the weight block and the bias row; at every other point it leaves the
  scratch alone.  In both cases it then stores into the output block the output rows computed from 200 rows of the
  adjacency block — the upper or the lower half, by the second grid coordinate — and from the scratch: at the first point
  the scratch it has just stored, at the others the scratch the point before left.  Each store covers its whole buffer,
  so what the buffer holds afterwards is the stored value, and each load of a whole buffer reads its contents.
-/
import proofs.«109879_g764504178707_cont_9to1c4b_186_10_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The offsets of a whole-buffer access. -/
theorem zero_offsets : (![0, 0] : Fin 2 → Nat) = fun _ => 0 := funext fun a => by fin_cases a <;> rfl

/-- The 200 rows of the adjacency block the body multiplies at grid coordinates `i`. -/
abbrev adjRows (i : grid0.Coords) (x1 : Vec F S400x10000 .f32) : Vec F S200x10000 .f32 :=
  View.ld x1 (Rect.unit (s := S400x10000) (k0_off1 i) S200x10000.size (Facts₀.k0_off1_inb i))

/-- At the first point the scratch ends holding the support rows of the feature block, the weight block and the bias row. -/
theorem scratch_first (c : Dev nD) (i : grid0.Coords) (a2 : Memref sig .tc .vmem S10000x128 .f32) (h2 : a2.IsWhole) (a3 : Memref sig .tc .vmem S400x10000 .f32) (h3 : a3.IsWhole) (a4 : Memref sig .tc .vmem S128x128 .f32) (h4 : a4.IsWhole) (a5 : Memref sig .tc .vmem S1x128 .f32) (h5 : a5.IsWhole) (a6 : Memref sig .tc .vmem S200x128 .f32) (h6 : a6.IsWhole) (a7 : Memref sig .tc .vmem S10000x128 .f32) (h7 : a7.IsWhole) (hc : cond0_0 i)
    (x0 : Vec F S10000x128 .f32) (x1 : Vec F S400x10000 .f32) (x2 : Vec F S128x128 .f32) (x3 : Vec F S1x128 .f32) :
    sout0_A_0 c i a2 h2 a3 h3 a4 h4 a5 h5 a6 h6 a7 h7 hc x0 x1 x2 x3 = k0_pay1 x0 x2 x3 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zero_offsets]
  simp only [View.readAt_eq_ld, h2.read_unread, h4.read_unread, h5.read_unread, View.ld_unit_zero (S := S10000x128) zero_offsets,
    View.ld_unit_zero (S := S128x128) zero_offsets, View.ld_unit_zero (S := S1x128) zero_offsets]

/-- At the first point the output block ends holding the output rows of the adjacency rows and of the support rows just
    stored: the scratch is read back after its covering store. -/
theorem output_first (c : Dev nD) (i : grid0.Coords) (a2 : Memref sig .tc .vmem S10000x128 .f32) (h2 : a2.IsWhole) (a3 : Memref sig .tc .vmem S400x10000 .f32) (h3 : a3.IsWhole) (a4 : Memref sig .tc .vmem S128x128 .f32) (h4 : a4.IsWhole) (a5 : Memref sig .tc .vmem S1x128 .f32) (h5 : a5.IsWhole) (a6 : Memref sig .tc .vmem S200x128 .f32) (h6 : a6.IsWhole) (a7 : Memref sig .tc .vmem S10000x128 .f32) (h7 : a7.IsWhole) (hc : cond0_0 i)
    (x0 : Vec F S10000x128 .f32) (x1 : Vec F S400x10000 .f32) (x2 : Vec F S128x128 .f32) (x3 : Vec F S1x128 .f32) :
    out0_A_4 c i a2 h2 a3 h3 a4 h4 a5 h5 a6 h6 a7 h7 hc x0 x1 x2 x3 = k0_pay2 (adjRows i x1) (k0_pay1 x0 x2 x3) := by
  unfold out0_A_4 adjRows
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zero_offsets]
  simp only [View.readCov_unit_zero (S := S10000x128) _ zero_offsets, View.readAt_eq_ld, h2.read_unread, h3.read_unread,
    h4.read_unread, h5.read_unread, View.ld_unit_zero (S := S10000x128) zero_offsets,
    View.ld_unit_zero (S := S128x128) zero_offsets, View.ld_unit_zero (S := S1x128) zero_offsets]

/-- At any other point the output block ends holding the output rows of the adjacency rows and of the scratch `xs` the
    point before left. -/
theorem output_later (c : Dev nD) (i : grid0.Coords) (a2 : Memref sig .tc .vmem S10000x128 .f32) (h2 : a2.IsWhole) (a3 : Memref sig .tc .vmem S400x10000 .f32) (h3 : a3.IsWhole) (a4 : Memref sig .tc .vmem S128x128 .f32) (h4 : a4.IsWhole) (a5 : Memref sig .tc .vmem S1x128 .f32) (h5 : a5.IsWhole) (a6 : Memref sig .tc .vmem S200x128 .f32) (h6 : a6.IsWhole) (a7 : Memref sig .tc .vmem S10000x128 .f32) (h7 : a7.IsWhole) (hc : ¬cond0_0 i)
    (x0 : Vec F S10000x128 .f32) (x1 : Vec F S400x10000 .f32) (x2 : Vec F S128x128 .f32) (x3 : Vec F S1x128 .f32) (xs : Vec F S10000x128 .f32) :
    out0_B_4 c i a2 h2 a3 h3 a4 h4 a5 h5 a6 h6 a7 h7 hc x0 x1 x2 x3 xs = k0_pay2 (adjRows i x1) xs := by
  unfold out0_B_4 adjRows
  rw [View.read_writes_eq_canon _ _ _ (cover0_B_4 c i a2 h2 a3 h3 a4 h4 a5 h5 a6 h6 a7 h7 hc x0 x1 x2 x3 xs)]
  unfold kernelRun0_B
  dsimp only
  rw [View.canon_unit_zero zero_offsets]
  simp only [View.readAt_eq_ld, h3.read_unread, h7.read_unread, View.ld_unit_zero (S := S10000x128) zero_offsets]

end Cert.KernelIdeal.Pieces

end
-- ==== Proof.InputBlocks.lean ====
/-
  The input blocks at a grid point, read off the arrays, for any float values.

  Three of the four inputs are staged whole: at every grid point the feature block is the feature array, the weight block
  the weight array, and the bias block the one-row array the host makes of the bias vector.  The adjacency block at point
  (i, j) is rows 400·i … 400·i + 399 of the adjacency matrix, and the body multiplies its rows 200·j … 200·j + 199: row `p`
  of those is row 400·i + 200·j + p of the matrix, which is row `p` of the output block the point writes back, since that
  block has index 2·i + j and 200 rows.  The relations between the index maps are decided once over the 50 points.
-/
import proofs.«109879_g764504178707_cont_9to1c4b_186_10_alg».proof.Proof.Gen.KernelIdeal.Value
import proofs.«109879_g764504178707_cont_9to1c4b_186_10_alg».proof.Proof.FoundPieces
import Idealize.ShloMosaic.Lib.ValueIdx
import Idealize.ShloMosaic.Lib.StableHlo.Run

noncomputable section

namespace Cert.KernelIdeal.InputBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The index maps over the grid: the feature, weight and bias windows stay at block (0, 0); the adjacency and output
    windows stay at column block 0; the first of the 200 adjacency rows the body multiplies is the first row of the
    output block; and the output's row-block index is below 50. -/
theorem block_indices : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_1.index t (1 : Fin 2) = 0 ∧ win0_4.index t (1 : Fin 2) = 0
    ∧ win0_1.index t (0 : Fin 2) * 400 + 200 * (grid0.coords t (1 : Fin 2)).val = win0_4.index t (0 : Fin 2) * 200
    ∧ win0_4.index t (0 : Fin 2) < 50 :=
  (by decide +kernel : ∀ t : Fin grid0.N, _)

/-- The feature block is the feature array. -/
theorem featureBlock (c : Dev nD) (t : Fin cfg0.N) : (iblk m c 0 t : Vec F S10000x128 .f32) = V m c main_arg0 := by
  obtain ⟨f0, f1, -⟩ := block_indices t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight block is the weight array. -/
theorem weightBlock (c : Dev nD) (t : Fin cfg0.N) : (iblk m c 2 t : Vec F S128x128 .f32) = V m c main_arg2 := by
  obtain ⟨-, -, f0, f1, -⟩ := block_indices t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias block is the one-row array the host makes of the bias vector. -/
theorem biasBlock (c : Dev nD) (t : Fin cfg0.N) : (iblk m c 3 t : Vec F S1x128 .f32) = V m c main_v0 := by
  obtain ⟨-, -, -, -, f0, f1, -⟩ := block_indices t
  funext y
  show V m c main_v0 (((cfg0.win 3).blk t).view.emb y) = V m c main_v0 y
  refine congrArg (V m c main_v0) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- That one-row array is the bias vector shape-cast to a row. -/
theorem biasRow (c : Dev nD) :
    (V m c main_v0 : Vec F S1x128 .f32) = shapeCast S1x128 (m ((c : Thread nD τ).loc main_arg3)) Facts₀.shapeCasts_S128_S1x128 := by
  dsimp only [V, hostOps0]
  after_results
  rfl

/-- Row `p` of the output block point `t` writes back, as a row of the whole output array. -/
def outRow (t : Fin cfg0.N) (p : Fin 200) : Fin 10000 :=
  ⟨win0_4.index t (0 : Fin 2) * 200 + p.val, by
    obtain ⟨-, -, -, -, -, -, -, -, -, fb⟩ := block_indices t
    have := p.isLt
    omega⟩

/-- Row `p` of the adjacency rows the body multiplies at point `t` is row `outRow t p` of the adjacency matrix. -/
theorem adjRows_entry (c : Dev nD) (t : Fin cfg0.N) (p : Fin 200) (k : Fin 10000) :
    Pieces.adjRows (grid0.coords t) (iblk m c 1 t) (ix2 p k) = V m c main_arg1 (ix2 (outRow t p) k) := by
  obtain ⟨-, -, -, -, -, -, f1, -, fr, -⟩ := block_indices t
  have o0 : k0_off1 (grid0.coords t) 0 = 200 * (grid0.coords t (1 : Fin 2)).val := congrFun (k0_off1_eq (grid0.coords t)) 0
  have o1 : k0_off1 (grid0.coords t) 1 = 0 := congrFun (k0_off1_eq (grid0.coords t)) 1
  show V m c main_arg1 (((cfg0.win 1).blk t).view.emb
      ((Rect.unit (s := S400x10000) (k0_off1 (grid0.coords t)) S200x10000.size (Facts₀.k0_off1_inb (grid0.coords t))).idx (ix2 p k)))
    = V m c main_arg1 (ix2 (outRow t p) k)
  refine congrArg (V m c main_arg1) (funext fun a => Fin.ext ?_)
  match a with
  | ⟨0, _⟩ =>
    show win0_1.index t (0 : Fin 2) * 400 + 1 * (k0_off1 (grid0.coords t) 0 + 1 * p.val) = win0_4.index t (0 : Fin 2) * 200 + p.val
    omega
  | ⟨1, _⟩ =>
    show win0_1.index t (1 : Fin 2) * 10000 + 1 * (k0_off1 (grid0.coords t) 1 + 1 * k.val) = k.val
    omega

end Cert.KernelIdeal.InputBlocks

end
-- ==== Proof.PointValues.lean ====
/-
  What the scratch and the output block hold after each grid point, for any float values.

  The 50 grid points run in order.  The first stores the support rows — computed from the feature, weight and bias blocks,
  each of which is its whole array at every point — into the scratch; no later point stores into the scratch.  So after
  EVERY point the scratch holds those same support rows (induction on the point), and the block a point writes back is
  the output rows of that point's 200 adjacency rows and of the support rows.
-/
import proofs.«109879_g764504178707_cont_9to1c4b_186_10_alg».proof.Proof.Gen.KernelIdeal.Value
import proofs.«109879_g764504178707_cont_9to1c4b_186_10_alg».proof.Proof.FoundPieces
import proofs.«109879_g764504178707_cont_9to1c4b_186_10_alg».proof.Proof.InputBlocks

noncomputable section

namespace Cert.KernelIdeal.PointValues

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The support rows: what the body computes from the feature array, the weight array and the bias row. -/
def supportRows (c : Dev nD) : Vec F S10000x128 .f32 :=
  k0_pay1 (V m c main_arg0) (V m c main_arg2) (V m c main_v0)

/-- Computed from the blocks of any point they are the same: those blocks are the whole arrays. -/
theorem supportRows_of_blocks (c : Dev nD) (t : Fin cfg0.N) :
    k0_pay1 (iblk m c 0 t) (iblk m c 2 t) (iblk m c 3 t) = supportRows m c :=
  congr (congr (congrArg (k0_pay1 (F := F)) (InputBlocks.featureBlock m c t)) (InputBlocks.weightBlock m c t))
    (InputBlocks.biasBlock m c t)

/-- After every point the scratch holds the support rows: the first point stores them, the others keep them.  By strong
    induction on the point's position in the grid's order. -/
theorem scratch_after (c : Dev nD) :
    ∀ (n : ℕ) (t : Fin cfg0.N), t.val = n → (outsAt0 m c t.val t.isLt).2 = supportRows m c := by
  intro n
  induction n using Nat.strong_induction_on with
  | _ n ih =>
    intro t htn
    by_cases h0 : t.val % 50 = 0
    · rw [outsAt0_A m c t h0]
      dsimp only
      exact (Pieces.scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
        (supportRows_of_blocks m c t)
    · have hpos : t.val ≠ 0 := fun h => h0 (by rw [h])
      rw [outsAt0_B m c t h0]
      dsimp only [sout0_B_0]
      exact ih (t.val - 1) (by omega) ⟨t.val - 1, (Nat.lt_of_le_of_lt (Nat.sub_le _ _) t.isLt)⟩ rfl

/-- After point `t` the output block holds the output rows of the point's adjacency rows and of the support rows. -/
theorem output_after (c : Dev nD) (t : Fin cfg0.N) :
    (outsAt0 m c t.val t.isLt).1 = k0_pay2 (Pieces.adjRows (grid0.coords t) (iblk m c 1 t)) (supportRows m c) := by
  by_cases h0 : t.val % 50 = 0
  · rw [outsAt0_A m c t h0]
    dsimp only
    exact (Pieces.output_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (congrArg (k0_pay2 (Pieces.adjRows (grid0.coords t) (iblk m c 1 t))) (supportRows_of_blocks m c t))
  · rw [outsAt0_B m c t h0]
    dsimp only
    exact (Pieces.output_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 m c (t.val - 1) (Nat.lt_of_le_of_lt (Nat.sub_le _ _) t.isLt)).2).trans
      (congrArg (k0_pay2 (Pieces.adjRows (grid0.coords t) (iblk m c 1 t)))
        (scratch_after m c (t.val - 1) ⟨t.val - 1, (Nat.lt_of_le_of_lt (Nat.sub_le _ _) t.isLt)⟩ rfl))

/-- So what point `t` writes back is those output rows, read through the window's block. -/
theorem flushed_rows (c : Dev nD) (t : Fin cfg0.N) :
    (dats m 0 c).flushed 4 t
      = (cfg0.win 4).cut (grid0.coords t) (k0_pay2 (Pieces.adjRows (grid0.coords t) (iblk m c 1 t)) (supportRows m c)) := by
  rw [Cert.KernelIdeal.Value.flushed4, output_after]

end Cert.KernelIdeal.PointValues

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.BodyValues.lean ====
/-
  The two values the kernel body computes, each read at ONE entry, on the extended reals.

  The first is what the body stores into its node-by-feature scratch at the first grid point: the product of the
  feature block with the weight block, plus the bias row broadcast down the rows.  Entry (k, c) is
  (Σ e, x (k, e) · w (e, c)) + bias (0, c): the product into a zero accumulator is the plain sum, the two shape casts
  are casts of a shape to itself, and the broadcast of a one-row array reads its one row.

  The second is what the body stores into the output block at every grid point: the hyperbolic tangent of the product
  of 200 rows of the adjacency matrix with the scratch.  Entry (p, c) is tanh (Σ k, a (p, k) · s (k, c)).
-/
import proofs.«109879_g764504178707_cont_9to1c4b_186_10_alg».proof.Proof.Gen.KernelIdeal.Skeleton
import proofs.«109879_g764504178707_cont_9to1c4b_186_10_alg».proof.Proof.LibMatmulNN
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-- The support rows the first point stores: entry (k, c) is row `k` of the feature block against column `c` of the
    weight block, plus the bias row at `c`. -/
theorem supportRows_apply (x : Vec Ideal S10000x128 .f32) (w : Vec Ideal S128x128 .f32) (bias : Vec Ideal S1x128 .f32)
    (k : Fin 10000) (c : Fin 128) :
    k0_pay1 (F := Ideal) x w bias (ix2 k c) = (∑ e : Fin 128, x (ix2 k e) * w (ix2 e c)) + bias (ix2 (0 : Fin 1) c) := by
  unfold k0_pay1
  simp only [shapeCast_self]
  exact congrArg₂ (· + ·)
    (Cert.LibMatmulNN.matmul_zero_apply Facts₀.dot_S10000x128_S128x128_S10000x128_1_0_0_1_n_n_wf none x w k c)
    (broadcastTo_1b_ab_apply bias Facts₀.broadcasts_S1x128_S10000x128 k c)

/-- The output rows every point stores: entry (p, c) is the hyperbolic tangent of row `p` of the adjacency rows against
    column `c` of the scratch. -/
theorem outputRows_apply (a : Vec Ideal S200x10000 .f32) (s : Vec Ideal S10000x128 .f32) (p : Fin 200) (c : Fin 128) :
    k0_pay2 (F := Ideal) a s (ix2 p c) = Ideal.tanh (∑ k : Fin 10000, a (ix2 p k) * s (ix2 k c)) := by
  unfold k0_pay2
  exact congrArg Ideal.tanh
    (Cert.LibMatmulNN.matmul_zero_apply Facts₀.dot_S200x10000_S10000x128_S200x128_1_0_0_1_n_n_wf none a s p c)

end Cert.KernelIdeal.BodyValues

end
-- ==== Proof.LayerArray.lean ====
/-
  The kernel's result array is the layer of its arguments, on the extended reals.

  Entry (k, q) of the support rows is the support at (k, q): the feature and weight arrays are as launched, and the bias
  row at (0, q) is the bias vector at q.  Entry (p, q) of the output rows point `t` writes back is therefore the layer at
  (row p of that point's output block, q): the adjacency row is that same row of the matrix, and the hyperbolic tangent is
  applied to the same sum.  The output block at point (i, j) is block 2·i + j of 200 rows, all 128 columns; the 50 blocks
  tile the 10000 rows, so every entry of the array is written back by the point whose block holds its row, and the array
  ends as the layer, entry by entry.
-/
import proofs.«109879_g764504178707_cont_9to1c4b_186_10_alg».proof.Proof.PointValues
import proofs.«109879_g764504178707_cont_9to1c4b_186_10_alg».proof.Proof.BodyValues
import proofs.«109879_g764504178707_cont_9to1c4b_186_10_alg».proof.Proof.GraphConvSpec
import Idealize.ShloMosaic.Lib.ValueLayout

noncomputable section

open scoped BigOperators

namespace Cert.KernelIdeal.LayerArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of the arguments as launched, as contents of the result array. -/
abbrev result (c : Dev nD) : Buf (Elt Ideal) ((c : Thread nD τ).loc main_v1) :=
  Cert.GraphConv.layer (m ((c : Thread nD τ).loc main_arg0)) (m ((c : Thread nD τ).loc main_arg1)) (m ((c : Thread nD τ).loc main_arg2)) (m ((c : Thread nD τ).loc main_arg3))

/-- The bias row at (0, q) is the bias vector at q. -/
theorem biasRow_entry (c : Dev nD) (q : Fin 128) :
    V m c main_v0 (ix2 (0 : Fin 1) q) = m ((c : Thread nD τ).loc main_arg3) (ix1 q) := by
  rw [InputBlocks.biasRow m c]
  exact shapeCast_a_1a_apply _ _ (0 : Fin 1) q

/-- Entry (k, q) of the support rows is the support of the arguments at (k, q). -/
theorem supportRows_entry (c : Dev nD) (k : Fin 10000) (q : Fin 128) :
    PointValues.supportRows m c (ix2 k q)
      = Cert.GraphConv.supportAt (m ((c : Thread nD τ).loc main_arg0)) (m ((c : Thread nD τ).loc main_arg2)) (m ((c : Thread nD τ).loc main_arg3)) k q := by
  unfold PointValues.supportRows
  refine (BodyValues.supportRows_apply (V m c main_arg0) (V m c main_arg2) (V m c main_v0) k q).trans ?_
  rw [biasRow_entry m c q, V_main_arg0 m c, V_main_arg2 m c]
  rfl

/-- Entry (p, q) of what point `t` writes back is the layer at (row p of the point's output block, q). -/
theorem block_entry (c : Dev nD) (t : Fin cfg0.N) (p : Fin 200) (q : Fin 128) :
    k0_pay2 (F := Ideal) (Pieces.adjRows (grid0.coords t) (iblk m c 1 t)) (PointValues.supportRows m c) (ix2 p q)
      = Cert.GraphConv.layerAt (m ((c : Thread nD τ).loc main_arg0)) (m ((c : Thread nD τ).loc main_arg1)) (m ((c : Thread nD τ).loc main_arg2)) (m ((c : Thread nD τ).loc main_arg3)) (InputBlocks.outRow t p) q := by
  refine (BodyValues.outputRows_apply (Pieces.adjRows (grid0.coords t) (iblk m c 1 t)) (PointValues.supportRows m c) p q).trans ?_
  unfold Cert.GraphConv.layerAt
  refine congrArg Ideal.tanh (Finset.sum_congr rfl fun k _ => ?_)
  rw [InputBlocks.adjRows_entry m c t p k, supportRows_entry m c k q, V_main_arg1 m c]

/-- The same with the block index and the array index as variables tied by their coordinates. -/
theorem rows_eq_layer (c : Dev nD) (t : Fin cfg0.N) (y : S200x128.Idx) (i : S10000x128.Idx)
    (h0 : (i 0).val = win0_4.index t (0 : Fin 2) * 200 + (y 0).val) (h1 : (i 1).val = (y 1).val) :
    k0_pay2 (F := Ideal) (Pieces.adjRows (grid0.coords t) (iblk m c 1 t)) (PointValues.supportRows m c) y = result m c i := by
  obtain ⟨p, q, rfl⟩ : ∃ (p : Fin 200) (q : Fin 128), y = ix2 p q := ⟨y 0, y 1, eq_ix2 y⟩
  obtain ⟨r, s, rfl⟩ : ∃ (r : Fin 10000) (s : Fin 128), i = ix2 r s := ⟨i 0, i 1, eq_ix2 i⟩
  have hr : r = InputBlocks.outRow t p := Fin.ext h0
  have hs : s = q := Fin.ext h1
  subst hs
  subst hr
  exact (block_entry m c t p s).trans (Cert.GraphConv.layer_ix2 _ _ _ _ _ _).symm

/-- WHAT POINT `t` WRITES BACK is block `t` of the layer. -/
theorem flushed_eq (c : Dev nD) (t : Fin cfg0.N) :
    (dats m 0 c).flushed 4 t = ((cfg0.win 4).blk t).view.read (Elt Ideal) (result m c) := by
  rw [PointValues.flushed_rows m c t]
  obtain ⟨-, -, -, -, -, -, -, f4, -, -⟩ := InputBlocks.block_indices t
  funext y
  show k0_pay2 (F := Ideal) (Pieces.adjRows (grid0.coords t) (iblk m c 1 t)) (PointValues.supportRows m c) y
    = result m c (((cfg0.win 4).blk t).view.emb y)
  refine rows_eq_layer m c t y (((cfg0.win 4).blk t).view.emb y) ?_ ?_
  · show win0_4.index t (0 : Fin 2) * 200 + 1 * (y 0).val = win0_4.index t (0 : Fin 2) * 200 + (y 0).val
    omega
  · show win0_4.index t (1 : Fin 2) * 128 + 1 * (y 1).val = (y 1).val
    omega

/-- An index of the array is in point `t`'s block iff each coordinate is in the block's range on its axis. -/
theorem mem_block (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v1).slice (win0_4.rect t)).set ↔ _
  rw [View.set_slice_whole, Rect.mem_set_unit]
  exact Iff.rfl

/-- Every one of the 50 row blocks is some point's. -/
theorem row_block_onto : ∀ b : Fin 50, ∃ t : Fin cfg0.N, win0_4.index t = ![b.val, 0] :=
  (by decide +kernel : ∀ b : Fin 50, ∃ t : Fin grid0.N, win0_4.index t = ![b.val, 0])

/-- THE ARRAY after the run is the layer: the blocks tile it. -/
theorem final (c : Dev nD) : (dats m 0 c).arrAt 4 cfg0.N = result m c :=
  (dats m 0 c).arrAt_eq_of_cover 4 (result m c) (fun t _ => flushed_eq m c t) fun i => by
    have hi0 : (i 0).val < 10000 := (i 0).isLt
    have hi1 : (i 1).val < 128 := (i 1).isLt
    obtain ⟨t, ht⟩ := row_block_onto ⟨(i 0).val / 200, by omega⟩
    have q0 : win0_4.index t (0 : Fin 2) = (i 0).val / 200 := congrFun ht 0
    have q1 : win0_4.index t (1 : Fin 2) = 0 := congrFun ht 1
    refine ⟨t, flush0_4 t, ?_⟩
    rw [mem_block]
    intro a
    match a with
    | ⟨0, _⟩ =>
      show win0_4.index t (0 : Fin 2) * 200 ≤ (i 0).val ∧ (i 0).val < win0_4.index t (0 : Fin 2) * 200 + 200
      omega
    | ⟨1, _⟩ =>
      show win0_4.index t (1 : Fin 2) * 128 ≤ (i 1).val ∧ (i 1).val < win0_4.index t (1 : Fin 2) * 128 + 128
      omega

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.LayerArray

end
-- ==== Proof.lean ====
/-
  The kernel computes the graph-convolution layer  out = tanh (adj · (feature · W + b))  and so does its reference: the
  proof of `Cert.Claim`.

  The kernel walks a 25 × 2 grid.  At the first point it computes the support matrix `feature · W + b` once, into a
  scratch it keeps for the rest of the grid; at point (i, j) it multiplies rows 400·i + 200·j … + 199 of the adjacency
  matrix with that scratch, applies the hyperbolic tangent, and writes the 200 × 128 result back as row block 2·i + j of
  the output.  The reference is the same expression on whole arrays.  On the extended reals the two agree entry by entry:
  entry (r, c) of either is tanh (Σ k, adj (r, k) · ((Σ e, feature (k, e) · W (e, c)) + b c)), the same finite sums in the
  same arrangement, so no algebraic law beyond reading each operation at an index is needed and no entry has to be
  finite.

  The three frame claims are the generated frames (the reference's is its generated run with the result dropped); the
  idealization rewrote nothing, so `preserves` is trivial; `algebraic` sets the kernel's run, whose result array is
  the layer of the arguments (Proof/LayerArray.lean), beside the reference's run, whose result is the layer of its
  arguments (Proof/ReferenceLayer.lean), the arguments agreeing.
-/
import proofs.«109879_g764504178707_cont_9to1c4b_186_10_alg».proof.Defs
import proofs.«109879_g764504178707_cont_9to1c4b_186_10_alg».proof.Proof.Gen.Kernel
import proofs.«109879_g764504178707_cont_9to1c4b_186_10_alg».proof.Proof.Gen.Kernel.Skeleton
import proofs.«109879_g764504178707_cont_9to1c4b_186_10_alg».proof.Proof.Gen.Kernel.Launch
import proofs.«109879_g764504178707_cont_9to1c4b_186_10_alg».proof.Proof.Gen.Kernel.Points
import proofs.«109879_g764504178707_cont_9to1c4b_186_10_alg».proof.Proof.Gen.Kernel.Frame
import proofs.«109879_g764504178707_cont_9to1c4b_186_10_alg».proof.Proof.Gen.KernelIdeal
import proofs.«109879_g764504178707_cont_9to1c4b_186_10_alg».proof.Proof.Gen.KernelIdeal.Skeleton
import proofs.«109879_g764504178707_cont_9to1c4b_186_10_alg».proof.Proof.Gen.KernelIdeal.Launch
import proofs.«109879_g764504178707_cont_9to1c4b_186_10_alg».proof.Proof.Gen.KernelIdeal.Points
import proofs.«109879_g764504178707_cont_9to1c4b_186_10_alg».proof.Proof.Gen.KernelIdeal.Frame
import proofs.«109879_g764504178707_cont_9to1c4b_186_10_alg».proof.Proof.Gen.ReferenceIdeal
import proofs.«109879_g764504178707_cont_9to1c4b_186_10_alg».proof.Proof.Gen.Pre_finite_inputs
import proofs.«109879_g764504178707_cont_9to1c4b_186_10_alg».proof.Proof.Gen.KernelIdeal.Value
import proofs.«109879_g764504178707_cont_9to1c4b_186_10_alg».proof.Proof.Gen.ReferenceIdeal.Run
import proofs.«109879_g764504178707_cont_9to1c4b_186_10_alg».proof.Proof.Gen.ReferenceIdeal.Read
import proofs.«109879_g764504178707_cont_9to1c4b_186_10_alg».proof.Proof.GraphConvSpec
import proofs.«109879_g764504178707_cont_9to1c4b_186_10_alg».proof.Proof.ReferenceLayer
import proofs.«109879_g764504178707_cont_9to1c4b_186_10_alg».proof.Proof.LayerArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the layer of its arguments, and the reference's at the layer
    of arguments that agree with them: one array. -/
theorem algebraic : Cert.algebraic_KernelIdeal_ReferenceIdeal := by
  intro m ρ m' ρ' _ hagree
  refine ⟨fun c => Cert.KernelIdeal.LayerArray.result m c, Cert.KernelIdeal.LayerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.LayerValue.reference_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
